-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x512 .f32) (main_arg1 : IVec S2x800000 32) (main_arg2 : FVec F S512x256 .f32) (main_arg3 : FVec F S256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S50000x256 : Shape := ⟨2, ![50000, 256]⟩
abbrev S2000x512 : Shape := ⟨2, ![2000, 512]⟩
abbrev S2000x256 : Shape := ⟨2, ![2000, 256]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 62
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S50000x256, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x256, .f32⟩
  | .hbm, ⟨54, _⟩ => ⟨S850000x1, .f32⟩
  | .hbm, ⟨55, _⟩ => ⟨S850000x256, .f32⟩
  | .hbm, ⟨56, _⟩ => ⟨S850000x256, .f32⟩
  | .hbm, ⟨57, _⟩ => ⟨S_, .f32⟩
  | .hbm, ⟨58, _⟩ => ⟨S50000x256, .f32⟩
  | .hbm, ⟨59, _⟩ => ⟨S850000x1, .i32⟩
  | .hbm, ⟨60, _⟩ => ⟨S50000x256, .f32⟩
  | .hbm, ⟨61, _⟩ => ⟨S50000x256, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256, .f32⟩
  | .local _ .vmem, ⟨8, _⟩ => ⟨S2000x256, .f32⟩
  | .local _ .vmem, ⟨9, _⟩ => ⟨S2000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S2000x256_S2000x256 : S2000x256.ShapeCasts S2000x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  dot_S2000x512_S512x256_S2000x256_1_0_0_1_n_n_wf : DotDims.WF S2000x512 S512x256 S2000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S50000x256 : Shape := ⟨2, ![50000, 256]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 67
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S50000x256, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x256, .f32⟩
  | .hbm, ⟨54, _⟩ => ⟨S850000x1, .f32⟩
  | .hbm, ⟨55, _⟩ => ⟨S850000x256, .f32⟩
  | .hbm, ⟨56, _⟩ => ⟨S850000x256, .f32⟩
  | .hbm, ⟨57, _⟩ => ⟨S_, .f32⟩
  | .hbm, ⟨58, _⟩ => ⟨S50000x256, .f32⟩
  | .hbm, ⟨59, _⟩ => ⟨S850000x1, .i32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S50000x256, .f32⟩
  | .hbm, ⟨64, _⟩ => ⟨S_, .f32⟩
  | .hbm, ⟨65, _⟩ => ⟨S50000x256, .f32⟩
  | .hbm, ⟨66, _⟩ => ⟨S50000x256, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.KernelRun.lean ====
/-
  The idealized kernel program's run with its result named.

  The program is two grid regions with a stretch of host operations between them. Its generated frame follows the
  buffer contents of a core through the five segments (`W0` at launch, `W1` after the matrix-product region, `W2`,
  `W3`, `W4` after the three host stretches, `W5` after the bias-and-clamp region) and ends with every unscoped
  buffer at `W5`. Read here, from that same run: the result array ends at `W5`'s contents of the result buffer, and
  the four argument arrays end as launched.
-/
import proofs.«178070_j34007551050523_1_alg».proof.Proof.Gen.KernelIdeal.Frame

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds the last
    boundary's contents `W5` of the result buffer, and the argument arrays are unchanged. -/
theorem run_main : θ_run defs (onTc (τ := τ) (main (F := F))) ⟨m, fun _ => 0, ρ⟩ (fun r => ∀ c : Dev nD,
      r.2.mem ((c.tc : Thread nD τ).loc main_v44) = W5 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v44 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Layer

end
-- ==== Proof.Aggregate.lean ====
/-
  The graph-convolution layer both programs compute, as one function of the node features after the linear map,
  the edge list and the bias.

  With `N = 50000` nodes and `E = 800000` edges, the edge list `e : [2, E]` gives a source row and a target row;
  every node also gets a self loop, so the two index columns have `E + N = 850000` entries (`srcIdx`, `dstIdx`).
  The degree of a node counts the entries of the target column that name it (`deg`: ones scattered and added);
  `dinv` is `deg^(-1/2)` where the degree is positive and zero elsewhere. Edge `k` carries the weight
  `dinv[src k] * dinv[dst k]`, the message `h[src k, :]` times that weight, and the layer's pre-activation at node
  `v` is the sum of the messages of the edges whose target is `v` (`aggNorm`, `aggregate`). The layer's output
  adds the bias along the feature axis and clamps at zero from below (`finish`).

  The index columns are signed 32-bit words of arbitrary value: a negative entry is shifted up by `N` before it is
  used as a row to read (`wrap`), and what an out-of-range entry reads or adds to is whatever the host's gather
  and scatter-add do with it — the same function on both sides, never opened here.
-/
import proofs.«178070_j34007551050523_1_alg».proof.ReferenceIdeal

noncomputable section

namespace Cert.Gcn

open Idealize.ShloMosaic Cert.ReferenceIdeal
open Cert.ReferenceIdeal.Facts₀

variable {F : FTy → Type} [FloatOps F] [Cert.ReferenceIdeal.Facts]

/-- Row `r` of the edge list with the self loops `0, 1, …, N-1` appended. -/
def srcIdx (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

def dstIdx (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- An index column as the one-column matrix of rows to read, a negative entry shifted up by `N`. -/
def wrap (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The number of entries of the target column naming each node: ones added into zeros. -/
def deg (dst : IVec S850000 32) : FVec F S50000 .f32 :=
  Host.scatterAdd scatter_S50000_S850000x1_S850000_n_0_0_1
    (broadcastInDim S50000 ![] bcast_S_S50000 (constant (F := F) S_ .f32 0x00000000#32))
    (broadcastInDim S850000x1 ![0] bcast_S850000_S850000x1_0 dst)
    (broadcastInDim S850000 ![] bcast_S_S850000 (constant (F := F) S_ .f32 0x3F800000#32))

/-- `deg^(-1/2)` where `deg > 0`, zero elsewhere, from the comparison's mask `pos`, the reciprocal roots `rs`
    and the zero `z`. -/
def dinvOf (pos : IVec S50000 1) (rs : FVec F S50000 .f32) (z : FVec F S_ .f32) : FVec F S50000 .f32 :=
  select pos rs (broadcastInDim S50000 ![] bcast_S_S50000 (id z))

def dinv (dst : IVec S850000 32) : FVec F S50000 .f32 :=
  dinvOf (cmpf (F := F) .ogt (deg (F := F) dst) (broadcastInDim S50000 ![] bcast_S_S50000 (constant (F := F) S_ .f32 0x00000000#32)))
    (Host.rsqrt (deg (F := F) dst)) (constant (F := F) S_ .f32 0x00000000#32)

/-- The weighted messages summed at their targets: from the features `h`, the two index columns and `dv = dinv`. -/
def aggNorm (h : FVec F S50000x256 .f32) (src dst : IVec S850000 32) (dv : FVec F S50000 .f32) : FVec F S50000x256 .f32 :=
  Host.scatterAdd scatter_S50000x256_S850000x1_S850000x256_1_0_0_1
    (broadcastInDim S50000x256 ![] bcast_S_S50000x256 (constant (F := F) S_ .f32 0x00000000#32))
    (broadcastInDim S850000x1 ![0] bcast_S850000_S850000x1_0 dst)
    (mulf (Host.gather gather_S50000x256_S850000x1_S850000x256_1_0_n_n_0_1_1256 h (wrap src))
      (broadcastInDim S850000x256 ![0, 1] bcast_S850000x1_S850000x256_0_1
        (broadcastInDim S850000x1 ![0] bcast_S850000_S850000x1_0
          (mulf (Host.gather gather_S50000_S850000x1_S850000_n_0_n_n_0_1_1 dv (wrap src))
            (Host.gather gather_S50000_S850000x1_S850000_n_0_n_n_0_1_1 dv (wrap dst))))))

/-- The layer before bias and activation, of the features `h` and the edge list `e`. -/
def aggregate (h : FVec F S50000x256 .f32) (e : IVec S2x800000 32) : FVec F S50000x256 .f32 :=
  aggNorm h (srcIdx e) (dstIdx e) (dinv (F := F) (dstIdx e))

/-- Bias along the feature axis, then the maximum with zero. -/
def finish (a : FVec F S50000x256 .f32) (b : FVec F S256 .f32) : FVec F S50000x256 .f32 :=
  maximumf (addf a (broadcastInDim S50000x256 ![0, 1] bcast_S1x256_S50000x256_0_1 (broadcastInDim S1x256 ![1] bcast_S256_S1x256_1 b)))
    (broadcastInDim S50000x256 ![] bcast_S_S50000x256 (constant (F := F) S_ .f32 0x00000000#32))

/-- The whole layer: the linear map `x · W`, the aggregation, the bias and the activation. -/
def layer (x : FVec F S50000x512 .f32) (e : IVec S2x800000 32) (W : FVec F S512x256 .f32) (b : FVec F S256 .f32) : FVec F S50000x256 .f32 :=
  finish (aggregate (Host.dotGeneral dot_S50000x512_S512x256_S50000x256_1_0_0_1_n_n none x W) e) b

end Cert.Gcn

end
-- ==== Proof.HostStretch.lean ====
/-
  The host operations between the two grid regions of the idealized kernel program, read back.

  The three stretches compute, from the edge list and from the matrix product the first region left, exactly the
  aggregation of `Cert.Gcn`: the first stretch builds the two index columns, the degrees, their positivity mask and
  their reciprocal roots; the second selects `dinv`; the third gathers, weights and scatter-adds the messages. Each
  stretch is read at an arbitrary valuation of the buffers it starts from, one buffer at a time, and the three are
  then composed along the run's boundaries.
-/
import proofs.«178070_j34007551050523_1_alg».proof.Proof.Gen.KernelIdeal.Frame
import proofs.«178070_j34007551050523_1_alg».proof.Proof.Gen.ReferenceIdeal
import proofs.«178070_j34007551050523_1_alg».proof.Proof.Aggregate
import Idealize.ShloMosaic.Lib.StableHlo.Run

set_option maxRecDepth 16384

noncomputable section

namespace Cert.KernelIdeal.Layer

open Cert.KernelIdeal Cert.KernelIdeal.Gen
open Idealize.ShloMosaic Idealize.ShloMosaic.TcCoe Idealize.SL.Sem Idealize.ShloMosaic.StableHlo

variable {F : FTy → Type} [FloatOps F]

section Stretches

variable (X : Valuation τ sig (Elt F))

/-! ## The first stretch: index columns, degrees, mask, reciprocal roots -/

theorem s1_src : after (hostOps1 (F := F)) X (Proc.devRef .tc main_v6) = Cert.Gcn.srcIdx (X (Proc.devRef .tc main_arg1)) := by
  after_results; rfl

theorem s1_dst : after (hostOps1 (F := F)) X (Proc.devRef .tc main_v7) = Cert.Gcn.dstIdx (X (Proc.devRef .tc main_arg1)) := by
  after_results; rfl

theorem s1_pos : after (hostOps1 (F := F)) X (Proc.devRef .tc main_v13)
    = cmpf (F := F) .ogt (Cert.Gcn.deg (F := F) (Cert.Gcn.dstIdx (X (Proc.devRef .tc main_arg1))))
        (broadcastInDim Cert.ReferenceIdeal.S50000 ![] Cert.ReferenceIdeal.Facts₀.bcast_S_S50000 (constant (F := F) Cert.ReferenceIdeal.S_ .f32 0x00000000#32)) := by
  after_results; rfl

theorem s1_rs : after (hostOps1 (F := F)) X (Proc.devRef .tc main_v14)
    = Host.rsqrt (Cert.Gcn.deg (F := F) (Cert.Gcn.dstIdx (X (Proc.devRef .tc main_arg1)))) := by
  after_results; rfl

theorem s1_zero : after (hostOps1 (F := F)) X (Proc.devRef .tc main_cst_2) = constant (F := F) Cert.ReferenceIdeal.S_ .f32 0x00000000#32 := by
  after_results

theorem s1_h : after (hostOps1 (F := F)) X (Proc.devRef .tc main_v0) = X (Proc.devRef .tc main_v0) := by
  after_results

theorem s1_b : after (hostOps1 (F := F)) X (Proc.devRef .tc main_arg3) = X (Proc.devRef .tc main_arg3) := by
  after_results

/-! ## The second stretch: `dinv` selected -/

theorem s2_dinv : after (hostOps1_1 (F := F)) X (Proc.devRef .tc main_v15)
    = Cert.Gcn.dinvOf (F := F) (X (Proc.devRef .tc main_v13)) (X (Proc.devRef .tc main_v14)) (X (Proc.devRef .tc main_cst_2)) := by
  after_results; rfl

theorem s2_src : after (hostOps1_1 (F := F)) X (Proc.devRef .tc main_v6) = X (Proc.devRef .tc main_v6) := by
  after_results
theorem s2_dst : after (hostOps1_1 (F := F)) X (Proc.devRef .tc main_v7) = X (Proc.devRef .tc main_v7) := by
  after_results
theorem s2_h : after (hostOps1_1 (F := F)) X (Proc.devRef .tc main_v0) = X (Proc.devRef .tc main_v0) := by
  after_results
theorem s2_b : after (hostOps1_1 (F := F)) X (Proc.devRef .tc main_arg3) = X (Proc.devRef .tc main_arg3) := by
  after_results

/-! ## The third stretch: messages gathered, weighted, summed at their targets -/

theorem s3_agg : after (hostOps1_2 (F := F)) X (Proc.devRef .tc main_v43)
    = Cert.Gcn.aggNorm (F := F) (X (Proc.devRef .tc main_v0)) (X (Proc.devRef .tc main_v6)) (X (Proc.devRef .tc main_v7)) (X (Proc.devRef .tc main_v15)) := by
  after_results_simp <;> rfl

theorem s3_b : after (hostOps1_2 (F := F)) X (Proc.devRef .tc main_arg3) = X (Proc.devRef .tc main_arg3) := by
  after_results

end Stretches

/-! ## Composed along the run -/

variable (m : (ℓ : Loc nD τ sig) → Buf (Elt F) ℓ) (ρ : Dev nD → PrngReg)

/-- The edge list is untouched by the first region. -/
theorem W1_edges (c : Dev nD) : W1 m ρ c (Proc.devRef .tc main_arg1) = m ((c : Thread nD τ).loc main_arg1) :=
  W1_of_ne m ρ c main_arg1 (by decide)

/-- The bias is untouched by the first region. -/
theorem W1_bias (c : Dev nD) : W1 m ρ c (Proc.devRef .tc main_arg3) = m ((c : Thread nD τ).loc main_arg3) :=
  W1_of_ne m ρ c main_arg3 (by decide)

/-- What the second region finds in its first operand: the aggregation of what the first region left in its result
    array, along the launched edge list. -/
theorem entry_agg (c : Dev nD) : V4 m ρ c main_v43
    = Cert.Gcn.aggregate (F := F) (W1 m ρ c (Proc.devRef .tc main_v0)) (m ((c : Thread nD τ).loc main_arg1)) := by
  show after (hostOps1_2 (F := F)) (W3 m ρ c) (Proc.devRef .tc main_v43) = _
  rw [s3_agg]
  show Cert.Gcn.aggNorm (F := F) (after (hostOps1_1 (F := F)) (W2 m ρ c) (Proc.devRef .tc main_v0)) (after (hostOps1_1 (F := F)) (W2 m ρ c) (Proc.devRef .tc main_v6))
    (after (hostOps1_1 (F := F)) (W2 m ρ c) (Proc.devRef .tc main_v7)) (after (hostOps1_1 (F := F)) (W2 m ρ c) (Proc.devRef .tc main_v15)) = _
  rw [s2_h, s2_src, s2_dst, s2_dinv]
  show Cert.Gcn.aggNorm (F := F) (after (hostOps1 (F := F)) (W1 m ρ c) (Proc.devRef .tc main_v0)) (after (hostOps1 (F := F)) (W1 m ρ c) (Proc.devRef .tc main_v6))
    (after (hostOps1 (F := F)) (W1 m ρ c) (Proc.devRef .tc main_v7))
    (Cert.Gcn.dinvOf (F := F) (after (hostOps1 (F := F)) (W1 m ρ c) (Proc.devRef .tc main_v13)) (after (hostOps1 (F := F)) (W1 m ρ c) (Proc.devRef .tc main_v14))
      (after (hostOps1 (F := F)) (W1 m ρ c) (Proc.devRef .tc main_cst_2))) = _
  rw [s1_h, s1_src, s1_dst, s1_pos, s1_rs, s1_zero, W1_edges]
  rfl

/-- What the second region finds in its second operand: the launched bias. -/
theorem entry_bias (c : Dev nD) : V4 m ρ c main_arg3 = m ((c : Thread nD τ).loc main_arg3) := by
  show after (hostOps1_2 (F := F)) (W3 m ρ c) (Proc.devRef .tc main_arg3) = _
  rw [s3_b]
  show after (hostOps1_1 (F := F)) (W2 m ρ c) (Proc.devRef .tc main_arg3) = _
  rw [s2_b]
  show after (hostOps1 (F := F)) (W1 m ρ c) (Proc.devRef .tc main_arg3) = _
  rw [s1_b, W1_bias]

end Cert.KernelIdeal.Layer

end
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.ProductRegion.lean ====
/-
  The first grid region: the linear map, block by block.

  The region walks 25 grid points. At point `t` it loads rows `2000 t … 2000 t + 1999` of `x` (all 512 columns) and
  the whole of `W`, multiplies the two blocks into a zero accumulator, and writes the `2000 × 256` product back as rows
  `2000 t … 2000 t + 1999` of the result. Over the extended reals the narrowing of the operands to sixteen bits is the
  identity and entry `(p, q)` of the block product is `∑ f, x (2000 t + p, f) · W (f, q)` — entry `(2000 t + p, q)`
  of the whole product `x · W`. The 25 row blocks tile the result array, so after the region the array IS the
  host's product of the two argument arrays as the region found them.
-/
import proofs.«178070_j34007551050523_1_alg».proof.Proof.Gen.KernelIdeal.Frame
import proofs.«178070_j34007551050523_1_alg».proof.Proof.LibMatmul
import Idealize.ShloMosaic.Lib.Pipeline.Value
import Idealize.ShloMosaic.Lib.ValueIdx
import Idealize.ShloMosaic.Lib.StackMember
import Idealize.ShloMosaic.PureOps.Ideal.Laws

set_option maxRecDepth 16384

open scoped BigOperators

noncomputable section

namespace Cert.KernelIdeal.Layer

open Cert.KernelIdeal Cert.KernelIdeal.Gen
open Idealize.ShloMosaic Idealize.ShloMosaic.TcCoe Idealize.SL.Sem Idealize.ShloMosaic.ValueIdx
open Idealize.ShloMosaic.Pipeline (Dat)

theorem zero_offsets : (![0, 0] : Fin 2 → Nat) = fun _ => 0 := funext fun a => by fin_cases a <;> rfl

/-- The printed record of the block product is the plain `[2000, 512] · [512, 256]` product. -/
theorem block_dims : dot_S2000x512_S512x256_S2000x256_1_0_0_1_n_n = DotDims.plain 2000 512 256 := rfl

/-- An entry of the body's stored value, from the two loaded blocks. -/
theorem block_product (x0 : Vec Ideal S2000x512 .f32) (x1 : Vec Ideal S512x256 .f32) (p : Fin 2000) (q : Fin 256) :
    k0_pay1 (F := Ideal) x0 x1 (ix2 p q) = ∑ f : Fin 512, x0 (ix2 p f) * x1 (ix2 f q) := by
  unfold k0_pay1
  show matmul dot_S2000x512_S512x256_S2000x256_1_0_0_1_n_n none (truncf (F := Ideal) .bf16 x0 bitsLt_bf16_f32) (truncf (F := Ideal) .bf16 x1 bitsLt_bf16_f32)
    (constant S2000x256 .f32 0x00000000#32) (ix2 p q) = _
  rw [block_dims]
  exact Cert.Lib.Matmul.matmul_plain_zero_apply none (truncf (F := Ideal) .bf16 x0 bitsLt_bf16_f32) (truncf (F := Ideal) .bf16 x1 bitsLt_bf16_f32) p q

/-- What the body leaves in the output's staging buffer, at an entry. -/
theorem staged_product (x0 : Vec Ideal S2000x512 .f32) (x1 : Vec Ideal S512x256 .f32) (p : Fin 2000) (q : Fin 256) :
    out0_2 (F := Ideal) x0 x1 (ix2 p q) = ∑ f : Fin 512, x0 (ix2 p f) * x1 (ix2 f q) := by
  unfold out0_2
  rw [View.canon_unit_zero zero_offsets]
  simp only [View.ld_unit_zero (S := S2000x512) zero_offsets, View.ld_unit_zero (S := S512x256) zero_offsets]
  exact block_product x0 x1 p q

/-- The index maps over the grid: the two row windows sit at block row `t`, the weight window at the origin. -/
theorem block_rows : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Row `p` of the left block at point `t` is row `2000 t + p` of the left array. -/
theorem left_block (c : Dev nD) (t : Fin cfg0.N) (p : Fin 2000) (f : Fin 512) (r : Fin 50000) (hr : r.val = 2000 * t.val + p.val) :
    (iblk0 V c 0 t : Vec Ideal S2000x512 .f32) (ix2 p f) = (V c main_arg0 : S50000x512.Idx → Elt Ideal .f32) (ix2 r f) := by
  obtain ⟨e0, e1, -⟩ := block_rows t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 512 + 1 * f.val = f.val; rw [e1]; omega

/-- The right block at every point is the whole right array. -/
theorem right_block (c : Dev nD) (t : Fin cfg0.N) (f : Fin 512) (q : Fin 256) :
    (iblk0 V c 1 t : Vec Ideal S512x256 .f32) (ix2 f q) = (V c main_arg2 : S512x256.Idx → Elt Ideal .f32) (ix2 f q) := by
  obtain ⟨-, -, e2, e3, -⟩ := block_rows t
  unfold iblk0
  rw [View.read_apply]
  show V c main_arg2 _ = V c main_arg2 _
  congr 1
  funext a
  apply Fin.ext
  match a with
  | ⟨0, _⟩ => show win0_1.index t (0 : Fin 2) * 512 + 1 * f.val = f.val; rw [e2]; omega
  | ⟨1, _⟩ => show win0_1.index t (1 : Fin 2) * 256 + 1 * q.val = q.val; rw [e3]; omega

/-- The whole product of the two arrays the region finds. -/
abbrev wholeProduct (c : Dev nD) : FVec Ideal S50000x256 .f32 :=
  Host.dotGeneral (F := Ideal) (φ₁ := .f32) (φ₂ := .f32) (DotDims.plain 50000 512 256) none (V c main_arg0 : FVec Ideal S50000x512 .f32) (V c main_arg2 : FVec Ideal S512x256 .f32)

/-- What point `t` writes back is block `t` of the whole product. -/
theorem product_flushed (c : Dev nD) (t : Fin cfg0.N) :
    (dat0 V c).flushed 2 t = ((cfg0.win 2).blk t).view.read (Elt Ideal) (wholeProduct V c) := by
  have hN : cfg0.N = 25 := N_0
  obtain ⟨-, -, -, -, e4, e5⟩ := block_rows t
  show (cfg0.win 2).cut (grid0.coords t) ((dat0 V c).after 2 t) = _
  rw [after0_2]
  funext j
  obtain ⟨p, q, rfl⟩ : ∃ (p : Fin 2000) (q : Fin 256), j = ix2 p q := ⟨j 0, j 1, eq_ix2 j⟩
  have ht : t.val < 25 := hN ▸ t.isLt
  have hemb : ((cfg0.win 2).blk t).view.emb (ix2 p q) = (ix2 (⟨2000 * t.val + p.val, by omega⟩ : Fin 50000) q : S50000x256.Idx) := by
    funext a
    apply Fin.ext
    match a with
    | ⟨0, _⟩ => show win0_2.index t (0 : Fin 2) * 2000 + 1 * p.val = 2000 * t.val + p.val; rw [e4]; omega
    | ⟨1, _⟩ => show win0_2.index t (1 : Fin 2) * 256 + 1 * q.val = q.val; rw [e5]; omega
  rw [View.read_apply, hemb]
  show out0_2 (F := Ideal) (iblk0 V c 0 t) (iblk0 V c 1 t) (ix2 p q) = wholeProduct V c (ix2 (⟨2000 * t.val + p.val, by omega⟩ : Fin 50000) q)
  refine (staged_product (iblk0 V c 0 t) (iblk0 V c 1 t) p q).trans ?_
  refine Eq.trans ?_ (StackMember.dotGeneral_plain_apply (φ₁ := .f32) (φ₂ := .f32) none (V c main_arg0 : FVec Ideal S50000x512 .f32) (V c main_arg2 : FVec Ideal S512x256 .f32) ⟨2000 * t.val + p.val, by omega⟩ q).symm
  refine Finset.sum_congr rfl fun f _ => ?_
  rw [left_block V c t p f ⟨2000 * t.val + p.val, by omega⟩ rfl, right_block V c t f q]

/-- An index of the result array is in point `t`'s block iff each coordinate is in the block's range. -/
theorem product_mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- Every row of the result array is in some point's block: row `r` in block `r / 2000`. -/
theorem product_cover (i : S50000x256.Idx) :
    ∃ t : Fin cfg0.N, (cfg0.win 2).flush t = true ∧ i ∈ ((cfg0.win 2).blk t).view.set := by
  have hN : cfg0.N = 25 := N_0
  have hi0 : (i 0).val < 50000 := (i 0).isLt
  have hi1 : (i 1).val < 256 := (i 1).isLt
  let t : Fin cfg0.N := ⟨(i 0).val / 2000, by rw [hN]; omega⟩
  obtain ⟨-, -, -, -, e4, e5⟩ := block_rows t
  have e4' : win0_2.index t (0 : Fin 2) = (i 0).val / 2000 := e4
  refine ⟨t, flush0_2 t, ?_⟩
  rw [product_mem_blk]
  intro a
  match a with
  | ⟨0, _⟩ => show win0_2.index t (0 : Fin 2) * 2000 ≤ (i 0).val ∧ (i 0).val < win0_2.index t (0 : Fin 2) * 2000 + 2000; rw [e4']; omega
  | ⟨1, _⟩ => show win0_2.index t (1 : Fin 2) * 256 ≤ (i 1).val ∧ (i 1).val < win0_2.index t (1 : Fin 2) * 256 + 256; rw [e5]; omega

/-- After the region its result array is the whole product. -/
theorem product_final (c : Dev nD) : (dat0 V c).arrAt 2 cfg0.N = wholeProduct V c :=
  (dat0 V c).arrAt_eq_of_cover 2 (wholeProduct V c) (fun t _ => product_flushed V c t) product_cover

end Cert.KernelIdeal.Layer

end
-- ==== Proof.BiasRegion.lean ====
/-
  The second grid region: bias and clamp, block by block.

  The region walks 25 grid points. At point `t` it loads rows `2000 t … 2000 t + 1999` of the aggregated features
  and the whole bias vector, adds the bias to every row and takes the maximum with zero, and writes the block back
  as the same rows of the result. Entry `(p, q)` of the stored block is `max (a (2000 t + p, q) + b q) 0` — entry
  `(2000 t + p, q)` of `finish a b`. The 25 row blocks tile the result array, so after the region the array IS
  `finish` of the two arrays the region found.
-/
import proofs.«178070_j34007551050523_1_alg».proof.Proof.Gen.KernelIdeal.Frame
import proofs.«178070_j34007551050523_1_alg».proof.Proof.Gen.ReferenceIdeal
import proofs.«178070_j34007551050523_1_alg».proof.Proof.Aggregate
import Idealize.ShloMosaic.Lib.Pipeline.Value
import Idealize.ShloMosaic.Lib.ValueIdx
import Idealize.ShloMosaic.Lib.ValueLayout

set_option maxRecDepth 16384

noncomputable section

namespace Cert.KernelIdeal.Layer

open Cert.KernelIdeal Cert.KernelIdeal.Gen
open Idealize.ShloMosaic Idealize.ShloMosaic.TcCoe Idealize.SL.Sem Idealize.ShloMosaic.ValueIdx
open Idealize.ShloMosaic.Pipeline (Dat)

theorem zero_offsets2 : (![0, 0] : Fin 2 → Nat) = fun _ => 0 := funext fun a => by fin_cases a <;> rfl
theorem zero_offsets1 : (![0] : Fin 1 → Nat) = fun _ => 0 := funext fun a => by fin_cases a; rfl

/-- The specification's last step at an entry: the bias of the entry's column added, then the maximum with zero. -/
theorem finish_apply (a : FVec Ideal Cert.ReferenceIdeal.S50000x256 .f32) (b : FVec Ideal Cert.ReferenceIdeal.S256 .f32)
    (r : Fin 50000) (q : Fin 256) :
    Cert.Gcn.finish (F := Ideal) a b (ix2 r q) = max (a (ix2 r q) + b (ix1 q)) (Ideal.ofBits .f32 0x00000000#32) := by
  unfold Cert.Gcn.finish
  show max (a (ix2 r q) + broadcastInDim Cert.ReferenceIdeal.S50000x256 ![0, 1] Cert.ReferenceIdeal.Facts₀.bcast_S1x256_S50000x256_0_1
      (broadcastInDim Cert.ReferenceIdeal.S1x256 ![1] Cert.ReferenceIdeal.Facts₀.bcast_S256_S1x256_1 b) (ix2 r q))
    (broadcastInDim Cert.ReferenceIdeal.S50000x256 ![] Cert.ReferenceIdeal.Facts₀.bcast_S_S50000x256
      (constant (F := Ideal) Cert.ReferenceIdeal.S_ .f32 0x00000000#32) (ix2 r q)) = _
  rw [broadcastInDim_apply _ Cert.ReferenceIdeal.Facts₀.bcast_S1x256_S50000x256_0_1 _ (ix2 r q) (ix2 (0 : Fin 1) q) (fun a => match a with
      | ⟨0, _⟩ => by show 0 = if (1 : Nat) = 1 then 0 else r.val; rw [if_pos rfl]
      | ⟨1, _⟩ => by show q.val = if (256 : Nat) = 1 then 0 else q.val; rw [if_neg (by decide)]),
    broadcastInDim_apply _ Cert.ReferenceIdeal.Facts₀.bcast_S256_S1x256_1 b (ix2 (0 : Fin 1) q) (ix1 q) (fun a => match a with
      | ⟨0, _⟩ => by show q.val = if (256 : Nat) = 1 then 0 else q.val; rw [if_neg (by decide)]),
    broadcastInDim_apply _ Cert.ReferenceIdeal.Facts₀.bcast_S_S50000x256 _ (ix2 r q) ix0 (fun a => a.elim0)]
  rfl

/-- An entry of the body's stored value, from the two loaded blocks. -/
theorem block_bias (x0 : Vec Ideal S2000x256 .f32) (x1 : Vec Ideal S256 .f32) (p : Fin 2000) (q : Fin 256) :
    k1_pay1 (F := Ideal) x0 x1 (ix2 p q) = max (x0 (ix2 p q) + x1 (ix1 q)) (Ideal.ofBits .f32 0x00000000#32) := by
  unfold k1_pay1
  show max (shapeCast S2000x256 x0 shapeCasts_S2000x256_S2000x256 (ix2 p q)
      + broadcastTo S2000x256 (shapeCast S1x256 x1 shapeCasts_S256_S1x256) broadcasts_S1x256_S2000x256 (ix2 p q))
    (Ideal.ofBits .f32 0x00000000#32) = _
  rw [shapeCast_self, broadcastTo_1b_ab_apply, shapeCast_a_1a_apply]

/-- What the body leaves in the output's staging buffer, at an entry. -/
theorem staged_bias (x0 : Vec Ideal S2000x256 .f32) (x1 : Vec Ideal S256 .f32) (p : Fin 2000) (q : Fin 256) :
    out1_2 (F := Ideal) x0 x1 (ix2 p q) = max (x0 (ix2 p q) + x1 (ix1 q)) (Ideal.ofBits .f32 0x00000000#32) := by
  unfold out1_2
  rw [View.canon_unit_zero zero_offsets2]
  simp only [View.ld_unit_zero (S := S2000x256) zero_offsets2, View.ld_unit_zero (S := S256) zero_offsets1]
  exact block_bias x0 x1 p q

/-- The index maps over the grid: the two row windows sit at block row `t`, the bias window at the origin. -/
theorem bias_rows : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- Row `p` of the feature block at point `t` is row `2000 t + p` of the feature array. -/
theorem feature_block (c : Dev nD) (t : Fin cfg1.N) (p : Fin 2000) (q : Fin 256) (r : Fin 50000) (hr : r.val = 2000 * t.val + p.val) :
    (iblk1 V c 0 t : Vec Ideal S2000x256 .f32) (ix2 p q) = (V c main_v43 : S50000x256.Idx → Elt Ideal .f32) (ix2 r q) := by
  obtain ⟨e0, e1, -⟩ := bias_rows t
  unfold iblk1
  rw [View.read_apply]
  show V c main_v43 _ = V c main_v43 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 256 + 1 * q.val = q.val; rw [e1]; omega

/-- The bias block at every point is the whole bias vector. -/
theorem bias_block (c : Dev nD) (t : Fin cfg1.N) (q : Fin 256) :
    (iblk1 V c 1 t : Vec Ideal S256 .f32) (ix1 q) = (V c main_arg3 : S256.Idx → Elt Ideal .f32) (ix1 q) := by
  obtain ⟨-, -, e2, -⟩ := bias_rows t
  unfold iblk1
  rw [View.read_apply]
  show V c main_arg3 _ = V c main_arg3 _
  congr 1
  funext a
  apply Fin.ext
  match a with
  | ⟨0, _⟩ => show win1_1.index t (0 : Fin 1) * 256 + 1 * q.val = q.val; rw [e2]; omega

/-- The layer's last step applied to the two arrays the region finds. -/
abbrev finished (c : Dev nD) : S50000x256.Idx → Elt Ideal .f32 :=
  Cert.Gcn.finish (F := Ideal) (V c main_v43 : S50000x256.Idx → Elt Ideal .f32) (V c main_arg3 : S256.Idx → Elt Ideal .f32)

/-- What point `t` writes back is block `t` of `finished`. -/
theorem bias_flushed (c : Dev nD) (t : Fin cfg1.N) :
    (dat1 V c).flushed 2 t = ((cfg1.win 2).blk t).view.read (Elt Ideal) (finished V c) := by
  have hN : cfg1.N = 25 := N_1
  obtain ⟨-, -, -, e3, e4⟩ := bias_rows t
  show (cfg1.win 2).cut (grid1.coords t) ((dat1 V c).after 2 t) = _
  rw [after1_2]
  funext j
  obtain ⟨p, q, rfl⟩ : ∃ (p : Fin 2000) (q : Fin 256), j = ix2 p q := ⟨j 0, j 1, eq_ix2 j⟩
  have ht : t.val < 25 := hN ▸ t.isLt
  have hemb : ((cfg1.win 2).blk t).view.emb (ix2 p q) = (ix2 (⟨2000 * t.val + p.val, by omega⟩ : Fin 50000) q : S50000x256.Idx) := by
    funext a
    apply Fin.ext
    match a with
    | ⟨0, _⟩ => show win1_2.index t (0 : Fin 2) * 2000 + 1 * p.val = 2000 * t.val + p.val; rw [e3]; omega
    | ⟨1, _⟩ => show win1_2.index t (1 : Fin 2) * 256 + 1 * q.val = q.val; rw [e4]; omega
  rw [View.read_apply, hemb]
  show out1_2 (F := Ideal) (iblk1 V c 0 t) (iblk1 V c 1 t) (ix2 p q) = finished V c (ix2 (⟨2000 * t.val + p.val, by omega⟩ : Fin 50000) q)
  refine (staged_bias (iblk1 V c 0 t) (iblk1 V c 1 t) p q).trans ?_
  refine Eq.trans ?_ (finish_apply (V c main_v43 : S50000x256.Idx → Elt Ideal .f32) (V c main_arg3 : S256.Idx → Elt Ideal .f32) ⟨2000 * t.val + p.val, by omega⟩ q).symm
  rw [feature_block V c t p q ⟨2000 * t.val + p.val, by omega⟩ rfl, bias_block V c t q]

/-- An index of the result array is in point `t`'s block iff each coordinate is in the block's range. -/
theorem bias_mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v44).slice (win1_2.rect t)).set ↔ _
  rw [View.set_slice_whole, Rect.mem_set_unit]
  exact Iff.rfl

/-- Every row of the result array is in some point's block: row `r` in block `r / 2000`. -/
theorem bias_cover (i : S50000x256.Idx) :
    ∃ t : Fin cfg1.N, (cfg1.win 2).flush t = true ∧ i ∈ ((cfg1.win 2).blk t).view.set := by
  have hN : cfg1.N = 25 := N_1
  have hi0 : (i 0).val < 50000 := (i 0).isLt
  have hi1 : (i 1).val < 256 := (i 1).isLt
  let t : Fin cfg1.N := ⟨(i 0).val / 2000, by rw [hN]; omega⟩
  obtain ⟨-, -, -, e3, e4⟩ := bias_rows t
  have e3' : win1_2.index t (0 : Fin 2) = (i 0).val / 2000 := e3
  refine ⟨t, flush1_2 t, ?_⟩
  rw [bias_mem_blk]
  intro a
  match a with
  | ⟨0, _⟩ => show win1_2.index t (0 : Fin 2) * 2000 ≤ (i 0).val ∧ (i 0).val < win1_2.index t (0 : Fin 2) * 2000 + 2000; rw [e3']; omega
  | ⟨1, _⟩ => show win1_2.index t (1 : Fin 2) * 256 ≤ (i 1).val ∧ (i 1).val < win1_2.index t (1 : Fin 2) * 256 + 256; rw [e4]; omega

/-- After the region its result array is `finished`. -/
theorem bias_final (c : Dev nD) : (dat1 V c).arrAt 2 cfg1.N = finished V c :=
  (dat1 V c).arrAt_eq_of_cover 2 (finished V c) (fun t _ => bias_flushed V c t) bias_cover

end Cert.KernelIdeal.Layer

end
-- ==== Proof.Layer.lean ====
/-
  The two idealized programs compute one function: the graph-convolution layer `Cert.Gcn.layer`.

  The kernel program: its first region leaves the whole product `x · W` in its result array (the 25 row blocks of
  the product, each a block product over the full contraction axis); the host stretches aggregate that array along
  the launched edge list; its second region leaves `finish` of the aggregate and the launched bias in the program's
  result. The reference program's composed term is the same operations applied to the host's product `x · W`. Nothing
  of the aggregation is opened: once the two linear maps are one array, the two terms are one term.
-/
import proofs.«178070_j34007551050523_1_alg».proof.Proof.KernelRun
import proofs.«178070_j34007551050523_1_alg».proof.Proof.HostStretch
import proofs.«178070_j34007551050523_1_alg».proof.Proof.ProductRegion
import proofs.«178070_j34007551050523_1_alg».proof.Proof.BiasRegion
import proofs.«178070_j34007551050523_1_alg».proof.Proof.RefRun
import proofs.«178070_j34007551050523_1_alg».proof.Proof.Aggregate

set_option maxRecDepth 16384

noncomputable section

open Idealize.ShloMosaic Idealize.ShloMosaic.TcCoe Idealize.SL.Sem

namespace Cert.KernelIdeal.Layer

open Cert.KernelIdeal Cert.KernelIdeal.Gen

variable (m : (ℓ : Loc nD τ sig) → Buf (Elt Ideal) ℓ) (ρ : Dev nD → PrngReg)

/-- The layer of the launched argument arrays. -/
abbrev layerOf (c : Dev nD) : Buf (Elt Ideal) ((c.tc : Thread nD τ).loc main_v44) :=
  Cert.Gcn.layer (F := Ideal) (m ((c.tc : Thread nD τ).loc main_arg0)) (m ((c.tc : Thread nD τ).loc main_arg1))
    (m ((c.tc : Thread nD τ).loc main_arg2)) (m ((c.tc : Thread nD τ).loc main_arg3))

/-- The last boundary's contents of the result buffer are the layer of the launched arguments. -/
theorem result_eq (c : Dev nD) : W5 m ρ c (Proc.devRef .tc main_v44) = layerOf m c := by
  refine (W5_arr m ρ c 2).trans ?_
  rw [bias_final (V4 m ρ) c]
  show Cert.Gcn.finish (F := Ideal) (V4 m ρ c main_v43) (V4 m ρ c main_arg3) = _
  rw [entry_agg, entry_bias]
  rw [show W1 m ρ c (Proc.devRef .tc main_v0) = (dat0 (V0 m ρ) c).arrAt 2 cfg0.N from W1_arr m ρ c 2, product_final (V0 m ρ) c]
  rfl

/-- The kernel program's run: the result array ends at the layer of the launched arguments, which are unchanged. -/
theorem run : θ_run defs (onTc (τ := τ) (main (F := Ideal))) ⟨m, fun _ => 0, ρ⟩ (fun r => ∀ c : Dev nD,
      r.2.mem ((c.tc : Thread nD τ).loc main_v44) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_main m ρ)

end Cert.KernelIdeal.Layer

namespace Cert.ReferenceIdeal.Layer

open Cert.ReferenceIdeal

/-- The reference's composed term is the layer of its launched arguments. -/
theorem result_eq (m : (ℓ : Loc nD τ sig) → Buf (Elt Ideal) ℓ) (c : Dev nD) :
    Cert.ReferenceIdeal.ValueP.res_main_v47 (F := Ideal) m c
      = Cert.Gcn.layer (F := Ideal) (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.ValueP.res_main_v47
  rfl

end Cert.ReferenceIdeal.Layer

end
-- ==== Proof.lean ====
/-
  A graph-convolution layer on 50000 nodes: a Pallas program against its jnp reference, equal over the extended reals.

  Both programs compute `relu (A (x · W) + b)`, where `A` sums, at every node, the features of its in-neighbours (self
  loop included) weighted by `deg^(-1/2)` of both ends (`Cert.Gcn`, Proof/Aggregate.lean). The kernel program computes
  `x · W` in a grid region of 25 row blocks with operands narrowed to sixteen bits, runs the aggregation as the same
  host operations the reference runs, and applies bias and clamp in a second grid region of 25 row blocks. Over the
  extended reals a change of float format is the identity and a block product into a zero accumulator is the block of
  the whole product, so both results are `Cert.Gcn.layer` of the arguments (Proof/Layer.lean). No finiteness of the
  inputs is used: the two sides are the same operations on the same array, never rearranged.

  The three frames are the generated frame certificates (the reference's: its run with the result dropped); the ideal
  pass rewrote nothing, so the preservation claim is trivial.
-/
import proofs.«178070_j34007551050523_1_alg».proof.Defs
import proofs.«178070_j34007551050523_1_alg».proof.Proof.Gen.Kernel
import proofs.«178070_j34007551050523_1_alg».proof.Proof.Gen.Kernel.Skeleton
import proofs.«178070_j34007551050523_1_alg».proof.Proof.Gen.Kernel.Launch
import proofs.«178070_j34007551050523_1_alg».proof.Proof.Gen.Kernel.Points
import proofs.«178070_j34007551050523_1_alg».proof.Proof.Gen.Kernel.Frame
import proofs.«178070_j34007551050523_1_alg».proof.Proof.Gen.KernelIdeal
import proofs.«178070_j34007551050523_1_alg».proof.Proof.Gen.KernelIdeal.Skeleton
import proofs.«178070_j34007551050523_1_alg».proof.Proof.Gen.KernelIdeal.Launch
import proofs.«178070_j34007551050523_1_alg».proof.Proof.Gen.KernelIdeal.Points
import proofs.«178070_j34007551050523_1_alg».proof.Proof.Gen.KernelIdeal.Frame
import proofs.«178070_j34007551050523_1_alg».proof.Proof.Gen.ReferenceIdeal
import proofs.«178070_j34007551050523_1_alg».proof.Proof.Gen.Pre_finite_inputs
import proofs.«178070_j34007551050523_1_alg».proof.Proof.Layer
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs end with the layer of those arguments in their result. -/
theorem algebraic : Cert.algebraic_KernelIdeal_ReferenceIdeal := by
  intro m ρ m' ρ' _ hagree
  refine ⟨fun c => Cert.KernelIdeal.Layer.layerOf m c, Cert.KernelIdeal.Layer.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Layer.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
